-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S512x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S512x256 : Shape := ⟨2, ![512, 256]⟩
abbrev S50000x256 : Shape := ⟨2, ![50000, 256]⟩
abbrev S5000x512 : Shape := ⟨2, ![5000, 512]⟩
abbrev S5000x256 : Shape := ⟨2, ![5000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S50000x128 : Shape := ⟨2, ![50000, 128]⟩
abbrev S1x128 : Shape := ⟨2, ![1, 128]⟩

abbrev nBuf : Space → Nat
  | .hbm => 72
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S512x256, .f32⟩
  | .hbm, ⟨11, _⟩ => ⟨S50000x256, .f32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .f32⟩
  | .local _ .vmem, ⟨4, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S512x128_S512x128_S512x256_d1 : Shape.Concatenates [S512x128, S512x128] S512x256 1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S50000x256_S50000x128_0_0 : S50000x256.Slices ![0, 0] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x256_S50000x128_0_128 : S50000x256.Slices ![0, 128] S50000x128
  dot_S5000x512_S512x256_S5000x256_1_0_0_1_n_n_wf : DotDims.WF S5000x512 S512x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibRowBlockDot.lean ====
/-
  A row block of a matrix product, at the ideal values.

  For A of M×K and W of K×N the product A · W has at (r, q) the entry  ∑ c < K, A (r, c) · W (c, q):  row r of the
  product depends on row r of A only. So if X (B×K) holds row r of A as its row p — X (p, ·) = A (r, ·) — and W'
  agrees with W on column q, then the product X · W' accumulated onto the zero splat has at (p, q) the entry of
  A · W at (r, q). A product computed one tile of rows at a time is the product. This holds on the extended reals
  with no finiteness: the two sides are the same finite sum of the same products.
-/
import proofs.«105369_j6760278524377_2_alg».proof.Proof.LibMatmulNN

noncomputable section

open scoped BigOperators

namespace Idealize.ShloMosaic.RowBlockDot

open Idealize.ShloMosaic Idealize.ShloMosaic.ValueIdx

variable {M K N : Nat}

/-- The host's A · W (contracting axis 1 of A with axis 0 of W, no batch axis) at (a, b): the sum over the contracted
    coordinate of A (a, c) · W (c, b), whatever the precision and the schedule key. -/
theorem dotGeneral_apply {φ₁ φ₂ : FTy} (prec : Option ContractPrecision) (sched : HostSchedule)
    (A : FVec Ideal ⟨2, ![M, K]⟩ φ₁) (W : FVec Ideal ⟨2, ![K, N]⟩ φ₂) (a : Fin M) (b : Fin N) :
    FloatOps.dotGeneral (DotDims.plain M K N) prec sched A W (ix2 a b) = ∑ c : Fin K, A (ix2 a c) * W (ix2 c b) := by
  rw [Ideal.dotGeneral_apply, ← Equiv.sum_comp (contrEquiv1 (DotDims.plain M K N) K rfl rfl).symm]
  refine Finset.sum_congr rfl fun c _ => ?_
  rw [MatmulNN.lhsIdx_plain, MatmulNN.rhsIdx_plain]

/-- A tile of rows times the right operand, into the zero splat, read at (p, q), is the whole product at (r, q) when
    row p of the tile is row r of the whole left operand and the two right operands agree on column q. -/
theorem matmul_rowBlock {B : Nat} {φ₁ φ₂ ψ₁ ψ₂ : FTy} (prec prec' : Option ContractPrecision) (sched : HostSchedule)
    (A : FVec Ideal ⟨2, ![M, K]⟩ φ₁) (W : FVec Ideal ⟨2, ![K, N]⟩ φ₂)
    (X : FVec Ideal ⟨2, ![B, K]⟩ ψ₁) (W' : FVec Ideal ⟨2, ![K, N]⟩ ψ₂) (p : Fin B) (q : Fin N) (r : Fin M)
    (hX : ∀ c : Fin K, X (ix2 p c) = A (ix2 r c)) (hW : ∀ c : Fin K, W' (ix2 c q) = W (ix2 c q)) :
    FloatOps.matmul (DotDims.plain B K N) prec X W' (constant ⟨2, ![B, N]⟩ .f32 0x00000000#32) (ix2 p q)
      = FloatOps.dotGeneral (DotDims.plain M K N) prec' sched A W (ix2 r q) := by
  rw [MatmulNN.matmul_zero_apply, dotGeneral_apply]
  exact Finset.sum_congr rfl fun c _ => by rw [hX c, hW c]

end Idealize.ShloMosaic.RowBlockDot

end
-- ==== Proof.KernelProduct.lean ====
/-
  The kernel's matrix product, tile by tile, is the product of the whole arrays.

  The grid has ten points. Point `t` fetches rows `5000 t ≤ · < 5000 (t + 1)` of `x : [50000, 512]` and the whole of
  `w : [512, 256]`, multiplies the tile by `w` into a zero accumulator (the casts to a narrower format are the identity
  on extended reals) and writes the [5000, 256] result back as rows `5000 t ≤ · < 5000 (t + 1)` of the output array.
  Row `r` of `x · w` depends on row `r` of `x` only, so each tile of the output is the matching tile of `x · w`, the
  ten tiles cover the output array, and the array ends holding `x · w`: at `(r, q)` the sum over `k < 512` of
  `x (r, k) * w (k, q)`. Both sides are the same finite sum of the same products: nothing about finiteness is used.
-/
import proofs.«105369_j6760278524377_2_alg».proof.Proof.Gen.KernelIdeal.Frame
import proofs.«105369_j6760278524377_2_alg».proof.Proof.LibRowBlockDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The product of the whole arrays, `x · w`. -/
abbrev whole (x : FVec Ideal S50000x512 .f32) (w : FVec Ideal S512x256 .f32) : FVec Ideal S50000x256 .f32 :=
  FloatOps.dotGeneral (DotDims.plain 50000 512 256) none .single x w

/-- What the body stores at `(p, q)` of its tile is `(A · Wt) (r, q)`, when row `p` of the fetched tile is row `r` of
    `A` and the fetched weights are `Wt`'s column `q`. -/
theorem stored_apply (A : FVec Ideal S50000x512 .f32) (Wt : FVec Ideal S512x256 .f32)
    (x0 : Vec Ideal S5000x512 .f32) (x1 : Vec Ideal S512x256 .f32) (p : Fin 5000) (q : Fin 256) (r : Fin 50000)
    (hX : ∀ k : Fin 512, x0 (ix2 p k) = A (ix2 r k)) (hW : ∀ k : Fin 512, x1 (ix2 k q) = Wt (ix2 k q)) :
    k0_pay1 (F := Ideal) x0 x1 (ix2 p q) = whole A Wt (ix2 r q) := by
  unfold k0_pay1
  rw [shapeCast_self]
  exact RowBlockDot.matmul_rowBlock none none .single A Wt (truncf .bf16 x0 bitsLt_bf16_f32) (truncf .bf16 x1 bitsLt_bf16_f32)
    p q r hX hW

/-- The printed index maps over the grid: point `t` takes tile `t` of the rows of `x` and of the output, all columns,
    and the whole of `w`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Row `p` of the tile of `x` fetched at point `t` is row `5000 t + p` of `x` as the region finds it. -/
theorem tile_x_apply (c : Dev nD) (t : Fin cfg0.N) (p : Fin 5000) (k : Fin 512) (r : Fin 50000)
    (hr : r.val = 5000 * t.val + p.val) :
    (iblk m c 0 t : Vec Ideal S5000x512 .f32) (ix2 p k) = (V m c main_arg0 : S50000x512.Idx → Elt Ideal .f32) (ix2 r k) := by
  obtain ⟨e0, e1, -⟩ := index_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The weights fetched at any point are the whole array `w` as the region finds it. -/
theorem tile_w_apply (c : Dev nD) (t : Fin cfg0.N) (k : Fin 512) (q : Fin 256) :
    (iblk m c 1 t : Vec Ideal S512x256 .f32) (ix2 k q) = (V m c main_v4 : S512x256.Idx → Elt Ideal .f32) (ix2 k q) := by
  obtain ⟨-, -, e2, e3, -⟩ := index_facts t
  show V m c main_v4 (((cfg0.win 1).blk t).view.emb (ix2 k q)) = V m c main_v4 (ix2 k q)
  refine congrArg (V m c main_v4) (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

/-- WHAT POINT `t` WRITES BACK is tile `t` of `x · w` of the arrays as the region finds them. -/
theorem flushed_eq (c : Dev nD) (t : Fin cfg0.N) :
    (dats m 0 c).flushed 2 t
      = ((cfg0.win 2).blk t).view.read (Elt Ideal) (whole (V m c main_arg0) (V m c main_v4)) := by
  show (cfg0.win 2).cut (grid0.coords t) ((dats m 0 c).after 2 t) = _
  rw [after0_2]
  unfold out0_2
  rw [View.canon_unit_zero hz]
  simp only [View.ld_unit_zero (S := S5000x512) hz, View.ld_unit_zero (S := S512x256) hz]
  obtain ⟨-, -, -, -, e4, e5, ht⟩ := index_facts t
  funext j
  have hj0 : (j 0).val < 5000 := (j 0).isLt
  have hj1 : (j 1).val < 256 := (j 1).isLt
  have key := stored_apply (V m c main_arg0) (V m c main_v4) (iblk m c 0 t) (iblk m c 1 t)
    ⟨(j 0).val, hj0⟩ ⟨(j 1).val, hj1⟩ ⟨5000 * t.val + (j 0).val, by omega⟩
    (fun k => tile_x_apply m c t ⟨(j 0).val, hj0⟩ k ⟨5000 * t.val + (j 0).val, by omega⟩ rfl)
    (fun k => tile_w_apply m c t k ⟨(j 1).val, hj1⟩)
  have hl : j = ix2 (⟨(j 0).val, hj0⟩ : Fin 5000) (⟨(j 1).val, hj1⟩ : Fin 256) := by
    funext a; match a with | ⟨0, _⟩ => rfl | ⟨1, _⟩ => rfl
  have hr : ((cfg0.win 2).blk t).view.emb j
      = ix2 (⟨5000 * t.val + (j 0).val, by omega⟩ : Fin 50000) (⟨(j 1).val, hj1⟩ : Fin 256) := by
    funext a; apply Fin.ext
    match a with
    | ⟨0, _⟩ => show win0_2.index t (0 : Fin 2) * 5000 + 1 * (j 0).val = 5000 * t.val + (j 0).val; omega
    | ⟨1, _⟩ => show win0_2.index t (1 : Fin 2) * 256 + 1 * (j 1).val = (j 1).val; omega
  show k0_pay1 (F := Ideal) (iblk m c 0 t) (iblk m c 1 t) j
    = whole (V m c main_arg0) (V m c main_v4) (((cfg0.win 2).blk t).view.emb j)
  rw [hr]
  exact (congrArg (k0_pay1 (F := Ideal) (iblk m c 0 t) (iblk m c 1 t)) hl).trans key

/-- An index of the output array is in point `t`'s tile iff each coordinate is in the tile's range on its axis. -/
theorem mem_tile (t : Fin cfg0.N) (i : S50000x256.Idx) :
    i ∈ ((cfg0.win 2).blk t).view.set
      ↔ ∀ a : Fin 2, win0_2.index t a * S5000x256.size a ≤ (i a).val
          ∧ (i a).val < win0_2.index t a * S5000x256.size a + S5000x256.size a := by
  show i ∈ ((View.whole main_v5).slice (win0_2.rect t)).set ↔ _
  rw [View.set_slice_whole, Rect.mem_set_unit]
  exact Iff.rfl

/-- The ten tiles cover the output array: row `r` lies in tile `r / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, e4, e5, -⟩ := index_facts t
  have tv : t.val = (i 0).val / 5000 := rfl
  refine ⟨t, flush0_2 t, ?_⟩
  rw [mem_tile]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- THE OUTPUT ARRAY after the region: `x · w` of the arrays as the region finds them. -/
theorem final (c : Dev nD) : (dats m 0 c).arrAt 2 cfg0.N = whole (V m c main_arg0) (V m c main_v4) :=
  (dats m 0 c).arrAt_eq_of_cover 2 (whole (V m c main_arg0) (V m c main_v4)) (fun t _ => flushed_eq m c t) covered

end Cert.KernelIdeal.Product

end
-- ==== Proof.LibScatterRead.lean ====
/-
  An accumulating scatter of rows, read at an index.

  The scatter takes an operand `x : [N, C]`, one signed index per update row (`idx : [E, 1]`) and updates
  `upd : [E, C]`; update row `e` is added, column by column, into operand row `idx e` when `0 ≤ idx e < N` and is
  dropped otherwise. With exact addition the result at `(n, c)` is
  `x(n, c) + ∑ {e | idx e = n} upd(e, c)`:
  each column is scattered independently of the others. Hence a scatter of several column groups packed side by
  side, read in one group, is the scatter of that group alone; and a scatter of a flattened `[E, H·3]` array whose
  column `3h + c` holds `m(e,h) * d(e,c)`, read back as `[N, H, 3]`, is `∑ {e | idx e = n} m(e,h) * d(e,c)`.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-- The dimension numbers of a row scatter: operand `[N, C]`, indices `[E, 1]` (one scalar index per update row, on
    the index-vector axis 1), updates `[E, C]`; the updates' axis 1 is the window axis, the operand's axis 0 is inserted
    and is the axis the index addresses. The well-formedness conditions `wf` are whatever proof the caller has. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-! ### Where update `(e, k)` lands: row `idx e` (read signed), column `k` -/

/-- On the row axis the window coordinate is zero (the axis is inserted) … -/
theorem rowScatter_window0 (e : Fin E) (k : Fin C) : (rowScatter N E C wf).window (ix2 e k) 0 = 0 := rfl
/-- … and on the column axis it is the update's column. -/
theorem rowScatter_window1 (e : Fin E) (k : Fin C) : (rowScatter N E C wf).window (ix2 e k) 1 = k.val := rfl
/-- The column axis is not addressed by the index: its start is zero. -/
theorem rowScatter_start1 (e : Fin E) (k : Fin C) (idx : IVec ⟨2, ![E, 1]⟩ w) :
    (rowScatter N E C wf).start (ix2 e k) idx 1 = 0 := rfl
/-- The index of update row `e` is read at `(e, 0)` of the index array. -/
theorem rowScatter_siIdx (e : Fin E) (k : Fin C) (c : Fin 1) :
    (rowScatter N E C wf).siIdx (ix2 e k) ⟨c.val, by have := c.isLt; simpa using this⟩ = ix2 e (0 : Fin 1) := by
  funext b
  match b with
  | ⟨0, _⟩ => rfl
  | ⟨1, _⟩ => exact Fin.ext (by have := c.isLt; simp [ScatterDims.siIdx])
/-- The start on the row axis is that index, read as a signed integer. -/
theorem rowScatter_start0 (e : Fin E) (k : Fin C) (idx : IVec ⟨2, ![E, 1]⟩ w) :
    (rowScatter N E C wf).start (ix2 e k) idx 0 = (idx (ix2 e (0 : Fin 1))).toInt := by
  unfold ScatterDims.start
  rw [dif_pos (by simp)]
  exact congrArg (fun q => (idx q).toInt) (rowScatter_siIdx wf e k ⟨0, by decide⟩)

/-- Update `(e, k)` lands on operand element `(n, c)` exactly when the index of row `e` is `n` and `k = c`. -/
theorem rowScatter_resultIdx?_eq_some_iff (e : Fin E) (k : Fin C) (idx : IVec ⟨2, ![E, 1]⟩ w) (n : Fin N) (c : Fin C) :
    (rowScatter N E C wf).resultIdx? (ix2 e k) idx = some (ix2 n c)
      ↔ (idx (ix2 e (0 : Fin 1))).toInt = (n.val : Int) ∧ k = c := by
  have hs0 := rowScatter_start0 wf e k idx
  have hs1 := rowScatter_start1 wf e k idx
  have hw0 := rowScatter_window0 wf e k
  have hw1 := rowScatter_window1 wf e k
  unfold ScatterDims.resultIdx?
  split
  · next h =>
    rw [Option.some.injEq]
    constructor
    · intro hf
      have h0 : ((rowScatter N E C wf).start (ix2 e k) idx 0 + ((rowScatter N E C wf).window (ix2 e k) 0 : Nat)).toNat = n.val :=
        congrArg (fun f => (f 0).val) hf
      have h1 : ((rowScatter N E C wf).start (ix2 e k) idx 1 + ((rowScatter N E C wf).window (ix2 e k) 1 : Nat)).toNat = c.val :=
        congrArg (fun f => (f 1).val) hf
      have hh0 : 0 ≤ (rowScatter N E C wf).start (ix2 e k) idx 0 + ((rowScatter N E C wf).window (ix2 e k) 0 : Nat) := (h 0).1
      rw [hs0, hw0] at h0 hh0
      rw [hs1, hw1] at h1
      refine ⟨by omega, Fin.ext (by omega)⟩
    · rintro ⟨ht, hc⟩
      funext a
      match a with
      | ⟨0, _⟩ =>
        refine Fin.ext ?_
        show ((rowScatter N E C wf).start (ix2 e k) idx 0 + ((rowScatter N E C wf).window (ix2 e k) 0 : Nat)).toNat = n.val
        rw [hs0, hw0, ht]; omega
      | ⟨1, _⟩ =>
        refine Fin.ext ?_
        show ((rowScatter N E C wf).start (ix2 e k) idx 1 + ((rowScatter N E C wf).window (ix2 e k) 1 : Nat)).toNat = c.val
        rw [hs1, hw1, hc]; omega
  · next h =>
    constructor
    · intro hf; exact absurd hf (by simp)
    · rintro ⟨ht, hc⟩
      refine absurd (fun a => ?_) h
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [hs0, hw0, ht]; have := n.isLt; omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [hs1, hw1]; have := k.isLt; omega

/-! ### The scatter read at an index -/

/-- The accumulating scatter of rows read at `(n, c)`: the operand there plus the sum, over the update rows `e` whose
    index (read signed) is `n`, of the update at `(e, c)`. Rows whose index is negative or `≥ N` match no `n` and are
    dropped. -/
theorem hostScatterAdd_rowScatter_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : Int)), upd (ix2 e c) := by
  unfold Ideal.hostScatterAdd
  refine congrArg (x (ix2 n c) + ·) ?_
  rw [Finset.sum_filter, sum_idx2, Finset.sum_filter]
  refine Finset.sum_congr rfl fun e _ => ?_
  by_cases ht : (idx (ix2 e (0 : Fin 1))).toInt = (n.val : Int)
  · rw [if_pos ht]
    rw [Finset.sum_eq_single c]
    · rw [if_pos ((rowScatter_resultIdx?_eq_some_iff wf e c idx n c).2 ⟨ht, rfl⟩)]
    · intro k _ hk
      rw [if_neg fun h => hk ((rowScatter_resultIdx?_eq_some_iff wf e k idx n c).1 h).2]
    · intro h; exact absurd (Finset.mem_univ c) h
  · rw [if_neg ht]
    refine Finset.sum_eq_zero fun k _ => ?_
    rw [if_neg fun h => ht ((rowScatter_resultIdx?_eq_some_iff wf e k idx n c).1 h).1]

/-- The same for the host's scatter as a program states it (`Host.scatterAdd` at the exact values). -/
theorem scatterAdd_rowScatter_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : Int)), upd (ix2 e c) :=
  hostScatterAdd_rowScatter_apply wf x idx upd n c

/-! ### Columns are scattered independently -/

/-- Two row scatters by the same indices, of possibly different widths, agree at `(n, c)` and `(n, c')` when their operands
    agree there and their updates agree in those two columns on every row. -/
theorem scatterAdd_rowScatter_congr_col {C' : Nat} {φ : FTy}
    (wf' : ScatterDims.WF ⟨2, ![N, C']⟩ ⟨2, ![E, 1]⟩ ⟨2, ![E, C']⟩ [1] [0] [0] 1)
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ) (n : Fin N) (c : Fin C) (c' : Fin C')
    (hx : x (ix2 n c) = x' (ix2 n c')) (hu : ∀ e : Fin E, upd (ix2 e c) = upd' (ix2 e c')) :
    Host.scatterAdd (rowScatter N E C wf) x idx upd (ix2 n c)
      = Host.scatterAdd (rowScatter N E C' wf') x' idx upd' (ix2 n c') := by
  rw [scatterAdd_rowScatter_apply, scatterAdd_rowScatter_apply, hx]
  exact congrArg (x' (ix2 n c') + ·) (Finset.sum_congr rfl fun e _ => hu e)

/-- A block of `W` columns at column offset `off`, cut out of a row scatter of width `C`, read at `(n, c)`: the scatter's
    value in column `off + c`. -/
theorem slice_scatterAdd_rowScatter_apply {W off : Nat} {φ : FTy}
    (hs : (⟨2, ![N, C]⟩ : Shape).Slices ![0, off] ⟨2, ![N, W]⟩)
    (x : FVec Ideal ⟨2, ![N, C]⟩ φ) (idx : IVec ⟨2, ![E, 1]⟩ w) (upd : FVec Ideal ⟨2, ![E, C]⟩ φ)
    (n : Fin N) (c : Fin W) (hc : off + c.val < C) :
    extractStridedSlice ⟨2, ![N, W]⟩ ![0, off] (Host.scatterAdd (rowScatter N E C wf) x idx upd) hs (ix2 n c)
      = x (ix2 n ⟨off + c.val, hc⟩)
        + ∑ e ∈ Finset.univ.filter (fun e : Fin E => (idx (ix2 e (0 : Fin 1))).toInt = (n.val : Int)),
            upd (ix2 e ⟨off + c.val, hc⟩) := by
  rw [← scatterAdd_rowScatter_apply wf x idx upd n ⟨off + c.val, hc⟩]
  unfold extractStridedSlice
  refine congrArg _ (funext fun a => ?_)
  match a with
  | ⟨0, _⟩ => exact Fin.ext (Nat.zero_add _)
  | ⟨1, _⟩ => rfl

/-- So the block of a PACKED scatter is the scatter of the block alone: if the narrow operand and updates are the packed
    ones' columns `off … off + W`, the narrow scatter at `(n, c)` is the packed scatter's block at `(n, c)`. -/
theorem slice_scatterAdd_rowScatter_eq {W off : Nat} {φ : FTy}
    (wfW : ScatterDims.WF ⟨2, ![N, W]⟩ ⟨2, ![E, 1]⟩ ⟨2, ![E, W]⟩ [1] [0] [0] 1)
    (hs : (⟨2, ![N, C]⟩ : Shape).Slices ![0, off] ⟨2, ![N, W]⟩)
    (x : FVec Ideal ⟨2, ![N, C]⟩ φ) (xW : FVec Ideal ⟨2, ![N, W]⟩ φ) (idx : IVec ⟨2, ![E, 1]⟩ w)
    (upd : FVec Ideal ⟨2, ![E, C]⟩ φ) (updW : FVec Ideal ⟨2, ![E, W]⟩ φ) (n : Fin N) (c : Fin W) (hc : off + c.val < C)
    (hx : xW (ix2 n c) = x (ix2 n ⟨off + c.val, hc⟩))
    (hu : ∀ e : Fin E, updW (ix2 e c) = upd (ix2 e ⟨off + c.val, hc⟩)) :
    extractStridedSlice ⟨2, ![N, W]⟩ ![0, off] (Host.scatterAdd (rowScatter N E C wf) x idx upd) hs (ix2 n c)
      = Host.scatterAdd (rowScatter N E W wfW) xW idx updW (ix2 n c) := by
  rw [slice_scatterAdd_rowScatter_apply wf hs x idx upd n c hc, scatterAdd_rowScatter_apply, hx]
  exact congrArg (x (ix2 n ⟨off + c.val, hc⟩) + ·) (Finset.sum_congr rfl fun e _ => (hu e).symm)

/-! ### A flattened `[E, 64, 3]` array scattered as `[E, 192]` and read back as `[N, 64, 3]` -/

/-- Flatten `mv : [E, 64, 3]` to `[E, 192]` (column `3h + c` holds `mv(e, h, c)`), scatter its rows into `x : [N, 192]`, and read the
    result as `[N, 64, 3]`: at `(n, h, c)` it is `x(n, 3h + c) + ∑ {e | idx e = n} mv(e, h, c)`. -/
theorem shapeCast_scatterAdd_shapeCast_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (idx : IVec ⟨2, ![E, 1]⟩ w) (mv : FVec Ideal ⟨3, ![E, 64, 3]⟩ φ)
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = x (ix2 n ⟨3 * h.val + c.val, by have := h.isLt; have := c.isLt; omega⟩)
        + ∑ e ∈ Finset.univ.filter (fun e : Fin E => (idx (ix2 e (0 : Fin 1))).toInt = (n.val : Int)), mv (ix3 e h c) := by
  have hq : 3 * h.val + c.val < 192 := by have := h.isLt; have := c.isLt; omega
  rw [shapeCast_apply _ h2 (ix3 n h c) (ix2 n ⟨3 * h.val + c.val, hq⟩) (by
    rw [Shape.rowMajor_val_two, Shape.rowMajor_val_three]
    show n.val * 192 + (3 * h.val + c.val) = (n.val * 64 + h.val) * 3 + c.val
    omega)]
  rw [scatterAdd_rowScatter_apply]
  refine congrArg (x (ix2 n ⟨3 * h.val + c.val, hq⟩) + ·) (Finset.sum_congr rfl fun e _ => ?_)
  exact shapeCast_apply mv h1 (ix2 e ⟨3 * h.val + c.val, hq⟩) (ix3 e h c) (by
    rw [Shape.rowMajor_val_two, Shape.rowMajor_val_three]
    show (e.val * 64 + h.val) * 3 + c.val = e.val * 192 + (3 * h.val + c.val)
    omega)

/-- With the flattened array a product `mv(e, h, c) = m(e, h) * d(e, c)` and a zero operand: the value at `(n, h, c)` is
    `∑ {e | idx e = n} m(e, h) * d(e, c)`. -/
theorem shapeCast_scatterAdd_shapeCast_mul_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (hx : ∀ i, x i = 0) (idx : IVec ⟨2, ![E, 1]⟩ w)
    (mv : FVec Ideal ⟨3, ![E, 64, 3]⟩ φ) (m : FVec Ideal ⟨2, ![E, 64]⟩ φ) (d : FVec Ideal ⟨2, ![E, 3]⟩ φ)
    (hmv : ∀ (e : Fin E) (h : Fin 64) (c : Fin 3), mv (ix3 e h c) = m (ix2 e h) * d (ix2 e c))
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = ∑ e ∈ Finset.univ.filter (fun e : Fin E => (idx (ix2 e (0 : Fin 1))).toInt = (n.val : Int)),
          m (ix2 e h) * d (ix2 e c) := by
  rw [shapeCast_scatterAdd_shapeCast_apply wf3 h1 h2 x idx mv n h c, hx, zero_add]
  exact Finset.sum_congr rfl fun e _ => hmv e h c

end RowScatter

end Cert.Spec

end
-- ==== Proof.LibTakeRows.lean ====
/-
  Row gathers: `jnp.take` in fill mode and plain `arr[idx]` are the same rows when every index is in range.

  Both programs gather rows of a two-axis array `arr : [N, 64]` at a vector `idx : [800000]` of 32-bit indices
  (`N = 800000` and `N = 50000`). Both first wrap a negative index, `idx' = select (idx < 0) (idx + N) idx`, and
  broadcast it to a column `w : [800000, 1]`. One program then gathers `arr` at `w` (`stablehlo.gather` with offset
  axis 1, collapsed axis 0, start index map [0], index vector axis 1 and slices [1, 64]; the start index is read signed
  and clamped into [0, N − 1]). The other also computes, per row, whether `0 ≤ w ≤ N − 1` (a reduction by `and` over
  the column's one entry), gathers the same way, and selects the gathered row where the test holds and a constant
  row where it does not.

  For `0 ≤ idx i < N` (signed): the wrap is the identity (`wrap_apply`), the range test holds in every row
  (`inRange_eq_one`), the clamp is the identity, and both terms are the function `rows`:
  entry `(i, c) ↦ arr (idx i, c)` (`take_fill_eq_rows`, `take_clip_eq_rows`, hence `take_fill_eq_take_clip`).
  The float instance is arbitrary; no float operation is involved beyond the constant row that is never selected.

  The gather's dimension numbers are a parameter constrained by its fields (`RowGather`), so the lemmas apply to any
  record with those fields whatever the proof of its side conditions; the shape facts of the broadcasts and of the
  reduction are parameters too.
-/
import Idealize.ShloMosaic.Lib.ValueIdx
import Idealize.ShloMosaic.Lib.ReduceAll

noncomputable section

namespace Cert.TakeRows

open Idealize.ShloMosaic Idealize.ShloMosaic.ValueIdx

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S800000x64 : Shape := ⟨2, ![800000, 64]⟩
abbrev S50000x64 : Shape := ⟨2, ![50000, 64]⟩

/-! ## The gather read at an index -/

section Gather
variable {α : Type}

/-- The dimension numbers of a row gather: operand `[N, C]`, start indices `[R, 1]`, result `[R, C]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[t, 0]` of result index `(t, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE GATHER READ AT `(t, c)`: the operand's row at the start index `idx[t, 0]`, read signed and clamped into
    `[0, N − 1]`, at column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    rw [GatherDims.batchCoord_eq_zero _ _ _ List.not_mem_nil]
    have hs : (rowDims N R C wf).start y idx 1 = 0 := by
      unfold GatherDims.start
      rw [dif_neg (show ¬ (1 : Fin 2) ∈ (rowDims N R C wf).startIndexMap from
        fun h => absurd (Fin.val_eq_of_eq (List.mem_singleton.mp h)) Nat.one_ne_zero)]
    rw [hs]
    simp only [Nat.add_zero, Nat.zero_add]
    rfl

/-- A gather's dimension numbers are a row gather's: its seven fields are the ones above (each holds by `rfl` for a
    record written with them). -/
structure RowGather {N R C : Nat} (d : GatherDims ⟨2, ![N, C]⟩ ⟨2, ![R, 1]⟩ ⟨2, ![R, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- The same reading for any record with a row gather's fields. -/
theorem gather_apply {N R C w : Nat} (hN : 0 < N) (d : GatherDims ⟨2, ![N, C]⟩ ⟨2, ![R, 1]⟩ ⟨2, ![R, C]⟩) (hd : RowGather d)
    (x : (⟨2, ![N, C]⟩ : Shape).Idx → α) (idx : IVec ⟨2, ![R, 1]⟩ w) (y : (⟨2, ![R, C]⟩ : Shape).Idx) :
    Host.gather d x idx y
      = x (ix2 (⟨min (idx (rowIdx y)).toInt.toNat (N - 1), by omega⟩ : Fin N) (⟨(y 1).val, idx2_lt1 y⟩ : Fin C)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact gather_rows_apply hN wf x idx y

end Gather

/-! ## Words -/

theorem toInt_zero : (0#32 : BitVec 32).toInt = 0 := by decide
theorem toInt_799999 : (799999#32 : BitVec 32).toInt = 799999 := by decide
theorem toInt_49999 : (49999#32 : BitVec 32).toInt = 49999 := by decide

/-- A reduction by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- `jnp.all` of an array of ones, at any result index: the converse of `Host.reduce_andi_eq_one`. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ## The index pipeline: wrap, column -/

/-- The wrap `select (idx < 0) (idx + n) idx` leaves a nonnegative index alone. -/
theorem wrap_apply (bc0 : S_.BroadcastsInDim S800000 ![]) (n : BitVec 32) (idx : IVec S800000 32) (i : S800000.Idx)
    (h0 : 0 ≤ (idx i).toInt) :
    select (cmpi .slt idx (broadcastInDim S800000 ![] bc0 (constantI S_ 32 0#32)))
      (addi idx (broadcastInDim S800000 ![] bc0 (constantI S_ 32 n))) idx i = idx i := by
  show Scalar.select (IntOp.cmpi .slt (idx i) 0#32) _ _ = _
  unfold Scalar.select
  rw [if_neg]
  intro hc
  have := IntOp.cmpi_slt.1 hc
  rw [toInt_zero] at this
  omega

/-- So on an array of nonnegative indices the wrap is the identity. -/
theorem wrap_eq (bc0 : S_.BroadcastsInDim S800000 ![]) (n : BitVec 32) (idx : IVec S800000 32)
    (h0 : ∀ i, 0 ≤ (idx i).toInt) :
    select (cmpi .slt idx (broadcastInDim S800000 ![] bc0 (constantI S_ 32 0#32)))
      (addi idx (broadcastInDim S800000 ![] bc0 (constantI S_ 32 n))) idx = idx :=
  funext fun i => wrap_apply bc0 n idx i (h0 i)

/-- The column `[800000, 1]` of a vector `[800000]` reads the vector at the row. -/
theorem col_apply {w : Nat} (bc1 : S800000.BroadcastsInDim S800000x1 ![0]) (v : IVec S800000 w) (y : S800000x1.Idx) :
    broadcastInDim S800000x1 ![0] bc1 v y = v (ix1 (⟨(y 0).val, idx2_lt0 y⟩ : Fin 800000)) := by
  unfold broadcastInDim
  refine congrArg v (funext fun a => ?_)
  match a with
  | ⟨0, _⟩ =>
    refine Fin.ext ?_
    rw [dif_neg (show ¬ S800000.size ⟨0, by decide⟩ = 1 from by decide)]
    rfl

/-! ## The two programs' terms -/

/-- A nonnegative signed reading is the unsigned reading. -/
theorem toInt_eq_toNat {x : BitVec 32} (h : 0 ≤ x.toInt) : x.toInt = (x.toNat : Int) :=
  BitVec.toInt_eq_toNat_of_lt (BitVec.toInt_pos_iff.mp h)

/-- Equal row numbers give the same entry. -/
theorem row_congr {α : Type} {N : Nat} (arr : (⟨2, ![N, 64]⟩ : Shape).Idx → α) {a b : Nat} (ha : a < N) (hb : b < N)
    (c : Fin 64) (e : a = b) : arr (ix2 (⟨a, ha⟩ : Fin N) c) = arr (ix2 (⟨b, hb⟩ : Fin N) c) := by
  subst e; rfl

/-- THE ROWS: entry `(i, c)` is `arr` at row `idx i` (read signed, clamped into `[0, N − 1]`) and column `c`. -/
def rows {α : Type} {N : Nat} (hN : 0 < N) (arr : (⟨2, ![N, 64]⟩ : Shape).Idx → α) (idx : IVec S800000 32) : S800000x64.Idx → α :=
  fun y => arr (ix2 (⟨min (idx (ix1 (⟨(y 0).val, idx2_lt0 y⟩ : Fin 800000))).toInt.toNat (N - 1), by omega⟩ : Fin N)
    (⟨(y 1).val, idx2_lt1 y⟩ : Fin 64))

/-- For an index in range the clamp is the identity: the row is `idx i` read unsigned. -/
theorem rows_apply {α : Type} {N : Nat} (hN : 0 < N) (arr : (⟨2, ![N, 64]⟩ : Shape).Idx → α) (idx : IVec S800000 32)
    (y : S800000x64.Idx) (h0 : 0 ≤ (idx (ix1 (⟨(y 0).val, idx2_lt0 y⟩ : Fin 800000))).toInt)
    (h1 : (idx (ix1 (⟨(y 0).val, idx2_lt0 y⟩ : Fin 800000))).toInt < N)
    (hlt : (idx (ix1 (⟨(y 0).val, idx2_lt0 y⟩ : Fin 800000))).toNat < N) :
    rows hN arr idx y
      = arr (ix2 (⟨(idx (ix1 (⟨(y 0).val, idx2_lt0 y⟩ : Fin 800000))).toNat, hlt⟩ : Fin N) (⟨(y 1).val, idx2_lt1 y⟩ : Fin 64)) := by
  unfold rows
  have e : min (idx (ix1 (⟨(y 0).val, idx2_lt0 y⟩ : Fin 800000))).toInt.toNat (N - 1)
      = (idx (ix1 (⟨(y 0).val, idx2_lt0 y⟩ : Fin 800000))).toNat := by
    have := toInt_eq_toNat h0
    omega
  exact row_congr arr _ _ _ e

section Take
variable {F : FTy → Type} [FloatOps F]
variable (bc0 : S_.BroadcastsInDim S800000 ![]) (bc1 : S800000.BroadcastsInDim S800000x1 ![0])
  (bc2 : S_.BroadcastsInDim S800000x1 ![]) (bc3 : S1.BroadcastsInDim S1x1 ![1])
  (bc4 : S1x1.BroadcastsInDim S800000x1 ![0, 1]) (red : S800000x1.ReducesTo [1] S800000) (hS : 0 < S_.numel)
  (bc5 : S800000.BroadcastsInDim S800000x64 ![0]) (bc6 : S_.BroadcastsInDim S800000x64 ![])

/-- The per-row range test `all (0 ≤ w ∧ w ≤ m)` over the column's one entry is 1 in every row when every entry of
    the column lies in `[0, m]` (signed). -/
theorem inRange_eq_one (m : BitVec 32) (M : Int) (hm : m.toInt = M) (w : IVec S800000x1 32)
    (hw : ∀ y, 0 ≤ (w y).toInt ∧ (w y).toInt ≤ M) (j : S800000.Idx) :
    Host.reduce IntOp.andi
      (andi (cmpi .sge w (broadcastInDim S800000x1 ![] bc2 (constantI S_ 32 0#32)))
        (cmpi .sle w (broadcastInDim S800000x1 ![0, 1] bc4 (broadcastInDim S1x1 ![1] bc3 (constantI S1 32 m)))))
      (constantI S_ 1 1#1) red hS j = 1#1 := by
  refine reduce_andi_of_all _ _ red hS j rfl fun y => ?_
  show IntOp.andi (IntOp.cmpi .sge (w y) 0#32) (IntOp.cmpi .sle (w y) m) = 1#1
  rw [IntOp.andi_eq_one]
  refine ⟨IntOp.cmpi_sge.2 ?_, IntOp.cmpi_sle.2 ?_⟩
  · rw [toInt_zero]; exact (hw y).1
  · rw [hm]; exact (hw y).2

/-- PLAIN `arr[idx]`: the gather at the wrapped index column is the rows, for nonnegative indices. -/
theorem take_clip_eq_rows {N : Nat} (hN : 0 < N) (n : BitVec 32)
    (d : GatherDims ⟨2, ![N, 64]⟩ S800000x1 S800000x64) (hd : RowGather d)
    (arr : FVec F ⟨2, ![N, 64]⟩ .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 n))) idx))
      = rows hN arr idx := by
  rw [wrap_eq bc0 n idx h0]
  funext y
  rw [gather_apply hN d hd]
  refine row_congr arr _ _ _ ?_
  rw [col_apply]

/-- `jnp.take` IN FILL MODE: for indices in `[0, N)` the range test holds in every row, so the select takes the
    gathered row everywhere, and the term is the rows. `m` is the word of `N − 1`. -/
theorem take_fill_eq_rows {N : Nat} (hN : 0 < N) (n m : BitVec 32) (hm : m.toInt = (N : Int) - 1)
    (d : GatherDims ⟨2, ![N, 64]⟩ S800000x1 S800000x64) (hd : RowGather d)
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = rows hN arr idx := by
  rw [← take_clip_eq_rows bc0 bc1 hN n d hd arr idx h0, wrap_eq bc0 n idx h0]
  have hmask : Host.reduce IntOp.andi
      (andi (cmpi .sge (broadcastInDim S800000x1 ![0] bc1 idx) (broadcastInDim S800000x1 ![] bc2 (constantI S_ 32 0#32)))
        (cmpi .sle (broadcastInDim S800000x1 ![0] bc1 idx)
          (broadcastInDim S800000x1 ![0, 1] bc4 (broadcastInDim S1x1 ![1] bc3 (constantI S1 32 m)))))
      (constantI S_ 1 1#1) red hS = fun _ => 1#1 :=
    funext fun j => inRange_eq_one bc2 bc3 bc4 red hS m _ hm _ (fun y => by
      rw [col_apply]
      have a := h0 (ix1 (⟨(y 0).val, idx2_lt0 y⟩ : Fin 800000))
      have b := h1 (ix1 (⟨(y 0).val, idx2_lt0 y⟩ : Fin 800000))
      exact ⟨a, by omega⟩) j
  rw [hmask]
  funext y
  show Scalar.select 1#1 _ _ = _
  rw [select_one]

/-- So the two programs' gathers are ONE function of the array and the indices, for indices in range. -/
theorem take_fill_eq_take_clip {N : Nat} (hN : 0 < N) (n n' m : BitVec 32) (hm : m.toInt = (N : Int) - 1)
    (d d' : GatherDims ⟨2, ![N, 64]⟩ S800000x1 S800000x64) (hd : RowGather d) (hd' : RowGather d')
    (bc0' : S_.BroadcastsInDim S800000 ![]) (bc1' : S800000.BroadcastsInDim S800000x1 ![0])
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = Host.gather d' arr (broadcastInDim S800000x1 ![0] bc1'
          (select (cmpi .slt idx (broadcastInDim S800000 ![] bc0' (constantI S_ 32 0#32)))
            (addi idx (broadcastInDim S800000 ![] bc0' (constantI S_ 32 n'))) idx)) :=
  (take_fill_eq_rows bc0 bc1 bc2 bc3 bc4 red hS bc5 bc6 hN n m hm d hd arr idx h0 h1).trans
    (take_clip_eq_rows bc0' bc1' hN n' d' hd' arr idx h0).symm

end Take

/-! ## The two extents -/

section Extents
variable {F : FTy → Type} [FloatOps F]

theorem pos_800000 : 0 < 800000 := by decide
theorem pos_50000 : 0 < 50000 := by decide
theorem toInt_m800000 : (799999#32 : BitVec 32).toInt = ((800000 : Nat) : Int) - 1 := by decide
theorem toInt_m50000 : (49999#32 : BitVec 32).toInt = ((50000 : Nat) : Int) - 1 := by decide

/-- Rows of the `[800000, 64]` array: the fill-mode term (constants `800000`, `799999`) is the rows. -/
theorem take_fill_800000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S800000x64 S800000x1 S800000x64) (hd : RowGather d)
    (arr : FVec F S800000x64 .f32) (idx : IVec S800000 32)
    (h0 : ∀ i, 0 ≤ (idx i).toInt) (h1 : ∀ i, (idx i).toInt < 800000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![0, 1] bc4 (broadcastInDim S1x1 ![1] bc3 (constantI S1 32 799999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 800000#32))) idx)))
      (broadcastInDim S800000x64 ![] bc6 (constant S_ .f32 0x7FC00000#32))
      = rows pos_800000 arr idx :=
  take_fill_eq_rows bc0 bc1 bc2 bc3 bc4 red hS bc5 bc6 pos_800000 800000#32 799999#32 toInt_m800000 d hd arr idx h0
    (fun i => by have := h1 i; exact_mod_cast this)

/-- … and the plain gather at the wrapped index column. -/
theorem take_clip_800000 (bc0 : S_.BroadcastsInDim S800000 ![]) (bc1 : S800000.BroadcastsInDim S800000x1 ![0])
    (d : GatherDims S800000x64 S800000x1 S800000x64) (hd : RowGather d)
    (arr : FVec F S800000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 800000#32))) idx))
      = rows pos_800000 arr idx :=
  take_clip_eq_rows bc0 bc1 pos_800000 800000#32 d hd arr idx h0

/-- Rows of the `[50000, 64]` array: the fill-mode term (constants `50000`, `49999`) is the rows. -/
theorem take_fill_50000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S50000x64 S800000x1 S800000x64) (hd : RowGather d)
    (arr : FVec F S50000x64 .f32) (idx : IVec S800000 32)
    (h0 : ∀ i, 0 ≤ (idx i).toInt) (h1 : ∀ i, (idx i).toInt < 50000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![0, 1] bc4 (broadcastInDim S1x1 ![1] bc3 (constantI S1 32 49999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 50000#32))) idx)))
      (broadcastInDim S800000x64 ![] bc6 (constant S_ .f32 0x7FC00000#32))
      = rows pos_50000 arr idx :=
  take_fill_eq_rows bc0 bc1 bc2 bc3 bc4 red hS bc5 bc6 pos_50000 50000#32 49999#32 toInt_m50000 d hd arr idx h0
    (fun i => by have := h1 i; exact_mod_cast this)

/-- … and the plain gather at the wrapped index column. -/
theorem take_clip_50000 (bc0 : S_.BroadcastsInDim S800000 ![]) (bc1 : S800000.BroadcastsInDim S800000x1 ![0])
    (d : GatherDims S50000x64 S800000x1 S800000x64) (hd : RowGather d)
    (arr : FVec F S50000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 50000#32))) idx))
      = rows pos_50000 arr idx :=
  take_clip_eq_rows bc0 bc1 pos_50000 50000#32 d hd arr idx h0

end Extents

/-! ## Index vectors cut out of a two-row array -/

abbrev S2x800000 : Shape := ⟨2, ![2, 800000]⟩
abbrev S1x800000 : Shape := ⟨2, ![1, 800000]⟩

/-- A row of a `[2, 800000]` array, sliced out and reshaped to `[800000]`, holds entries of the array: what holds of
    every entry of the array holds of every entry of the row (a slice and a reshape only re-index). -/
theorem slice_reshape_all {w : Nat} (off : Fin S2x800000.rank → Nat) (hs : S2x800000.Slices off S1x800000)
    (hc : S1x800000.ShapeCasts S800000) (a : IVec S2x800000 w) (P : BitVec w → Prop) (h : ∀ i, P (a i))
    (i : S800000.Idx) : P (shapeCast S800000 (extractStridedSlice S1x800000 off a hs) hc i) :=
  h _

end Cert.TakeRows

end
-- ==== Proof.LibPackedPass.lean ====
/-
  One aggregation pass over the messages of a graph, for several feature blocks packed side by side.

  Given node features `h : [N, C]`, a source and a destination index per message (`sI`, `dI : [E, 1]`, signed
  words), a weight per message (`nrm : [E, 1]`) and a scalar `z`, the pass gathers row `sI e` of `h` (the index
  clamped into [0, N - 1]), scales it by `nrm e`, and adds it into row `dI e` of an array filled with `z`; a message
  whose destination lies outside [0, N) is dropped:

      pass h (n, c) = z + ∑ {e | dI e = n} h (clamp (sI e), c) * nrm e.

  Column `c` of the result depends on column `c` of `h` alone. So when `h` holds a narrower array `h'` in its
  columns `off ≤ · < off + W`, that block of columns of the packed pass is the pass on `h'` alone. Both sides are read
  at an index and are the same sum of the same products: no law of the extended reals is used and no finiteness.
-/
import proofs.«105369_j6760278524377_2_alg».proof.Proof.LibScatterRead
import proofs.«105369_j6760278524377_2_alg».proof.Proof.LibTakeRows

noncomputable section

open scoped BigOperators

namespace Cert.PackedAggregate

open Idealize.ShloMosaic Idealize.ShloMosaic.ValueIdx

variable {N E C W off : Nat}

/-- A column of per-message weights `[E, 1]` spread over `C` columns, read at `(e, c)`: the weight of message `e`. -/
theorem spread_apply {α : Type} (bn : (⟨2, ![E, 1]⟩ : Shape).BroadcastsInDim ⟨2, ![E, C]⟩ ![0, 1])
    (nrm : (⟨2, ![E, 1]⟩ : Shape).Idx → α) (e : Fin E) (c : Fin C) :
    broadcastInDim ⟨2, ![E, C]⟩ ![0, 1] bn nrm (ix2 e c) = nrm (ix2 e (0 : Fin 1)) :=
  broadcastInDim_apply _ bn nrm (ix2 e c) (ix2 e (0 : Fin 1)) (fun a => match a with
    | ⟨0, _⟩ => by
        show e.val = if E = 1 then 0 else e.val
        split_ifs with h
        · have := e.isLt; omega
        · rfl
    | ⟨1, _⟩ => by show 0 = if (1 : Nat) = 1 then 0 else c.val; rw [if_pos rfl])

/-- A scalar spread over a whole array reads the scalar everywhere. -/
theorem fill_apply {α : Type} {s : Shape} (bz : (⟨0, ![]⟩ : Shape).BroadcastsInDim s ![])
    (z : (⟨0, ![]⟩ : Shape).Idx → α) (i : s.Idx) : broadcastInDim s ![] bz z i = z ix0 :=
  broadcastInDim_apply _ bz z i ix0 (fun a => a.elim0)

/-- THE BLOCK OF A PACKED PASS IS THE PASS ON THE BLOCK: columns `off ≤ · < off + W` of the pass on `h : [N, C]` are
    the pass on `h' : [N, W]` when `h'(r, c) = h(r, off + c)`. The indices, the weights and the fill are shared. -/
theorem slice_pass_eq {φ : FTy}
    (wfS : ScatterDims.WF ⟨2, ![N, C]⟩ ⟨2, ![E, 1]⟩ ⟨2, ![E, C]⟩ [1] [0] [0] 1)
    (wfSW : ScatterDims.WF ⟨2, ![N, W]⟩ ⟨2, ![E, 1]⟩ ⟨2, ![E, W]⟩ [1] [0] [0] 1)
    (gd : GatherDims ⟨2, ![N, C]⟩ ⟨2, ![E, 1]⟩ ⟨2, ![E, C]⟩) (hgd : Cert.TakeRows.RowGather gd)
    (gdW : GatherDims ⟨2, ![N, W]⟩ ⟨2, ![E, 1]⟩ ⟨2, ![E, W]⟩) (hgdW : Cert.TakeRows.RowGather gdW)
    (hN : 0 < N) (hs : (⟨2, ![N, C]⟩ : Shape).Slices ![0, off] ⟨2, ![N, W]⟩)
    (bz : (⟨0, ![]⟩ : Shape).BroadcastsInDim ⟨2, ![N, C]⟩ ![])
    (bzW : (⟨0, ![]⟩ : Shape).BroadcastsInDim ⟨2, ![N, W]⟩ ![])
    (bn : (⟨2, ![E, 1]⟩ : Shape).BroadcastsInDim ⟨2, ![E, C]⟩ ![0, 1])
    (bnW : (⟨2, ![E, 1]⟩ : Shape).BroadcastsInDim ⟨2, ![E, W]⟩ ![0, 1])
    (z : FVec Ideal ⟨0, ![]⟩ φ) (h : FVec Ideal ⟨2, ![N, C]⟩ φ) (h' : FVec Ideal ⟨2, ![N, W]⟩ φ)
    (sI dI : IVec ⟨2, ![E, 1]⟩ 32) (nrm : FVec Ideal ⟨2, ![E, 1]⟩ φ) (hoff : off + W ≤ C)
    (hh : ∀ (r : Fin N) (c : Fin W), h' (ix2 r c) = h (ix2 r ⟨off + c.val, by have := c.isLt; omega⟩)) :
    extractStridedSlice ⟨2, ![N, W]⟩ ![0, off]
        (Host.scatterAdd (Cert.Spec.rowScatter N E C wfS) (broadcastInDim ⟨2, ![N, C]⟩ ![] bz z) dI
          (mulf (Host.gather gd h sI) (broadcastInDim ⟨2, ![E, C]⟩ ![0, 1] bn nrm))) hs
      = Host.scatterAdd (Cert.Spec.rowScatter N E W wfSW) (broadcastInDim ⟨2, ![N, W]⟩ ![] bzW z) dI
          (mulf (Host.gather gdW h' sI) (broadcastInDim ⟨2, ![E, W]⟩ ![0, 1] bnW nrm)) := by
  funext j
  obtain ⟨n, c, rfl⟩ : ∃ (n : Fin N) (c : Fin W), j = ix2 n c := ⟨j 0, j 1, eq_ix2 j⟩
  have hc : off + c.val < C := by have := c.isLt; omega
  refine Cert.Spec.slice_scatterAdd_rowScatter_eq wfS wfSW hs _ _ dI _ _ n c hc ?_ (fun e => ?_)
  · rw [fill_apply bzW, fill_apply bz]
  · show FloatOps.mulf (Host.gather gdW h' sI (ix2 e c)) (broadcastInDim ⟨2, ![E, W]⟩ ![0, 1] bnW nrm (ix2 e c))
      = FloatOps.mulf (Host.gather gd h sI (ix2 e (⟨off + c.val, hc⟩ : Fin C)))
          (broadcastInDim ⟨2, ![E, C]⟩ ![0, 1] bn nrm (ix2 e (⟨off + c.val, hc⟩ : Fin C)))
    rw [spread_apply bnW, spread_apply bn, Cert.TakeRows.gather_apply hN gdW hgdW, Cert.TakeRows.gather_apply hN gd hgd]
    exact congrArg (fun t => FloatOps.mulf t (nrm (ix2 e (0 : Fin 1)))) (hh _ c)

end Cert.PackedAggregate

end
-- ==== Proof.LibSideBySide.lean ====
/-
  Two matrices laid side by side, read one entry at a time.

  For `x : [K, A]` and `y : [K, B]` the array `[x | y] : [K, T]` (the concatenation along the column axis) has column
  `q` of `x` as its column `q`, for `q < A`, and column `q` of `y` as its column `A + q`, for `q < B`.
-/
import Idealize.ShloMosaic.Lib.Pipeline.Value
import Idealize.ShloMosaic.Lib.ValueIdx

noncomputable section

namespace Cert.SideBySide

open Idealize.ShloMosaic Idealize.ShloMosaic.ValueIdx

variable {α : Type} {K A B T : Nat}

/-- A column of the left piece. -/
theorem left_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin A) (c : Fin T)
    (hc : c.val = q.val) :
    concatenate ⟨2, ![K, T]⟩ 1 [⟨⟨2, ![K, A]⟩, x⟩, ⟨⟨2, ![K, B]⟩, y⟩] h (ix2 k c) = x (ix2 k q) :=
  concatenate_apply_piece (t := ⟨2, ![K, T]⟩) (1 : Fin 2) [⟨⟨2, ![K, A]⟩, x⟩, ⟨⟨2, ![K, B]⟩, y⟩] h (ix2 k c) 0 (by simp) ⟨2, ![K, A]⟩ x rfl rfl
    0 rfl (ix2 k q)
    (fun b hb => match b, hb with
      | ⟨0, _⟩, _ => rfl
      | ⟨1, _⟩, hb => absurd rfl hb)
    (by show 0 + q.val = c.val; omega)

/-- A column of the right piece. -/
theorem right_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin B) (c : Fin T)
    (hc : c.val = A + q.val) :
    concatenate ⟨2, ![K, T]⟩ 1 [⟨⟨2, ![K, A]⟩, x⟩, ⟨⟨2, ![K, B]⟩, y⟩] h (ix2 k c) = y (ix2 k q) :=
  concatenate_apply_piece (t := ⟨2, ![K, T]⟩) (1 : Fin 2) [⟨⟨2, ![K, A]⟩, x⟩, ⟨⟨2, ![K, B]⟩, y⟩] h (ix2 k c) 1 (by simp) ⟨2, ![K, B]⟩ y rfl rfl
    A (by simp) (ix2 k q)
    (fun b hb => match b, hb with
      | ⟨0, _⟩, _ => rfl
      | ⟨1, _⟩, hb => absurd rfl hb)
    (by show A + q.val = c.val; omega)

end Cert.SideBySide

end
-- ==== Proof.Bridge.lean ====
/-
  The kernel's two results are the reference's.

  After its one product `h = x · [W_mu | W_logstd] : [50000, 256]` the kernel runs ONE aggregation pass over the
  850000 messages (the 800000 edges and one self loop per node) at width 256 — gather row `src e` of `h`, scale it by
  `norm e`, add it into row `dst e` of a zero array — and returns columns `0 ≤ · < 128` plus `b_mu` and columns
  `128 ≤ · < 256` plus `b_logstd`. The reference runs the pass twice at width 128, on `x · W_mu` and on `x · W_logstd`,
  with the same message indices and the same weights `norm` (both computed from the edge list alone, by the same
  operations in the same order in the two programs).

  Column `c` of `x · [W_mu | W_logstd]` is column `c` of `x · W_mu` for `c < 128` and column `c - 128` of `x · W_logstd`
  otherwise (the contraction reads one column of the weights), and a pass treats every column on its own, so each
  block of 128 columns of the packed pass is the reference's pass on that block. Every step is a reading of both sides at
  an index; no law of the extended reals beyond that is used, and the inputs' finiteness is never needed.
-/
import proofs.«105369_j6760278524377_2_alg».proof.Proof.KernelProduct
import proofs.«105369_j6760278524377_2_alg».proof.Proof.LibPackedPass
import proofs.«105369_j6760278524377_2_alg».proof.Proof.LibSideBySide
import proofs.«105369_j6760278524377_2_alg».proof.Proof.RefRun
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen

/-- The packed weights `[W_mu | W_logstd]`. -/
abbrev packed (w2 w4 : FVec Ideal S512x128 .f32) : FVec Ideal S512x256 .f32 :=
  concatenate S512x256 1 [⟨S512x128, w2⟩, ⟨S512x128, w4⟩] concatenates_S512x128_S512x128_S512x256_d1

/-- Column `c < 128` of `x · [W_mu | W_logstd]` is column `c` of `x · W_mu`. -/
theorem product_left (x0 : FVec Ideal S50000x512 .f32) (w2 w4 : FVec Ideal S512x128 .f32) (r : Fin 50000) (c : Fin 128) :
    (Host.dotGeneral Cert.ReferenceIdeal.dot_S50000x512_S512x128_S50000x128_1_0_0_1_n_n none x0 w2 :
        FVec Ideal ⟨2, ![50000, 128]⟩ .f32) (ix2 r c)
      = (Product.whole x0 (packed w2 w4) : FVec Ideal ⟨2, ![50000, 256]⟩ .f32)
          (ix2 r ⟨0 + c.val, by have := c.isLt; omega⟩) := by
  show FloatOps.dotGeneral (DotDims.plain 50000 512 128) none .single x0 w2 (ix2 r c)
    = FloatOps.dotGeneral (DotDims.plain 50000 512 256) none .single x0 (packed w2 w4)
        (ix2 r (⟨0 + c.val, by have := c.isLt; omega⟩ : Fin 256))
  rw [RowBlockDot.dotGeneral_apply, RowBlockDot.dotGeneral_apply]
  refine Finset.sum_congr rfl fun k _ => ?_
  exact congrArg (x0 (ix2 r k) * ·) (SideBySide.left_apply w2 w4 concatenates_S512x128_S512x128_S512x256_d1 k c _ (by simp)).symm

/-- Column `128 + c` of `x · [W_mu | W_logstd]` is column `c` of `x · W_logstd`. -/
theorem product_right (x0 : FVec Ideal S50000x512 .f32) (w2 w4 : FVec Ideal S512x128 .f32) (r : Fin 50000) (c : Fin 128) :
    (Host.dotGeneral Cert.ReferenceIdeal.dot_S50000x512_S512x128_S50000x128_1_0_0_1_n_n none x0 w4 :
        FVec Ideal ⟨2, ![50000, 128]⟩ .f32) (ix2 r c)
      = (Product.whole x0 (packed w2 w4) : FVec Ideal ⟨2, ![50000, 256]⟩ .f32)
          (ix2 r ⟨128 + c.val, by have := c.isLt; omega⟩) := by
  show FloatOps.dotGeneral (DotDims.plain 50000 512 128) none .single x0 w4 (ix2 r c)
    = FloatOps.dotGeneral (DotDims.plain 50000 512 256) none .single x0 (packed w2 w4)
        (ix2 r (⟨128 + c.val, by have := c.isLt; omega⟩ : Fin 256))
  rw [RowBlockDot.dotGeneral_apply, RowBlockDot.dotGeneral_apply]
  refine Finset.sum_congr rfl fun k _ => ?_
  exact congrArg (x0 (ix2 r k) * ·) (SideBySide.right_apply w2 w4 concatenates_S512x128_S512x128_S512x256_d1 k c _ rfl).symm

/-! ## The host operations after the region, in two stretches -/

/-- Running two stretches of host operations one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- Row `a` of the edge list `[2, 800000]` as a vector. -/
abbrev edgeRow (x1 : IVec S2x800000 32) (off : Fin 2 → Nat) (hs : S2x800000.Slices off S1x800000) : IVec S800000 32 :=
  shapeCast S800000 (extractStridedSlice S1x800000 off x1 hs) shapeCasts_S1x800000_S800000

/-- The 850000 messages' end points: the 800000 edges' (`v`), then node `i` for the self loop `i`. -/
abbrev withLoops (v : IVec S800000 32) : IVec S850000 32 :=
  concatenate S850000 0 [⟨S800000, v⟩, ⟨S50000, iotaInDim S50000 32 0⟩] concatenates_S800000_S50000_S850000_d0

/-- A node's degree: the number of messages whose destination it is (a scatter-add of ones into zeros). -/
abbrev degree (d : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- `deg > 0 ? rsqrt deg : 0`, node by node. -/
abbrev invSqrtDegree (d : IVec S850000 32) : FVec Ideal S50000 .f32 :=
  select (cmpf (F := Ideal) .ogt (degree d) (broadcastInDim S50000 ![] bcast_S_S50000 (constant S_ .f32 0x00000000#32)))
    (Host.rsqrt (degree d)) (broadcastInDim S50000 ![] bcast_S_S50000 (id (constant S_ .f32 0x00000000#32)))

/-! ### The outlined select's typed references

The outlined function `where` (a select against a broadcast scalar) names its operands through typed references;
contents pass to and from such a reference by a transport along an equation between a type and itself, which is the
identity. One statement per buffer of the call, whatever the proofs the reference was made with. -/

theorem ofBuf_cst2 (p1 p2 p3) (v : (⟨S_, .f32⟩ : BufTy).Contents (Elt Ideal)) :
    (TRef.of (T := ⟨S_, .f32⟩) main_cst_2 p1 p2 p3).ofBuf v = v := eq_of_heq (cast_heq _ _)
theorem toBuf_c0 (p1 p2 p3) (v : (⟨S_, .f32⟩ : BufTy).Contents (Elt Ideal)) :
    (TRef.of (T := ⟨S_, .f32⟩) main_call0_v0 p1 p2 p3).toBuf v = v := eq_of_heq (cast_heq _ _)
theorem ofBuf_c0 (p1 p2 p3) (v : (⟨S_, .f32⟩ : BufTy).Contents (Elt Ideal)) :
    (TRef.of (T := ⟨S_, .f32⟩) main_call0_v0 p1 p2 p3).ofBuf v = v := eq_of_heq (cast_heq _ _)
theorem toBuf_c1 (p1 p2 p3) (v : (⟨S50000, .f32⟩ : BufTy).Contents (Elt Ideal)) :
    (TRef.of (T := ⟨S50000, .f32⟩) main_call0_v1 p1 p2 p3).toBuf v = v := eq_of_heq (cast_heq _ _)
theorem ofBuf_c1 (p1 p2 p3) (v : (⟨S50000, .f32⟩ : BufTy).Contents (Elt Ideal)) :
    (TRef.of (T := ⟨S50000, .f32⟩) main_call0_v1 p1 p2 p3).ofBuf v = v := eq_of_heq (cast_heq _ _)
theorem ofBuf_v14 (p1 p2 p3) (v : (⟨S50000, .i1⟩ : BufTy).Contents (Elt Ideal)) :
    (TRef.of (T := ⟨S50000, .i1⟩) main_v14 p1 p2 p3).ofBuf v = v := eq_of_heq (cast_heq _ _)
theorem ofBuf_v15 (p1 p2 p3) (v : (⟨S50000, .f32⟩ : BufTy).Contents (Elt Ideal)) :
    (TRef.of (T := ⟨S50000, .f32⟩) main_v15 p1 p2 p3).ofBuf v = v := eq_of_heq (cast_heq _ _)
theorem toBuf_v16 (p1 p2 p3) (v : (⟨S50000, .f32⟩ : BufTy).Contents (Elt Ideal)) :
    (TRef.of (T := ⟨S50000, .f32⟩) main_v16 p1 p2 p3).toBuf v = v := eq_of_heq (cast_heq _ _)

/-- The first stretch (the message end points, the degrees and their inverse square roots), as one list. -/
abbrev indexOps : List (HloOp τ sig (Elt Ideal)) := hostOps1 ++ hostOps1_1

set_option maxHeartbeats 4000000 in
/-- What the first stretch leaves: the messages' sources and destinations, and `deg^(-1/2)`; the product and the biases
    are not touched. -/
theorem indexOps_results (U : Valuation τ sig (Elt Ideal)) (s d : IVec S800000 32)
    (h1 : U (Proc.devRef .tc main_v1) = s) (h3 : U (Proc.devRef .tc main_v3) = d) :
    after indexOps U (Proc.devRef .tc main_v7) = withLoops s
    ∧ after indexOps U (Proc.devRef .tc main_v8) = withLoops d
    ∧ after indexOps U (Proc.devRef .tc main_v16) = invSqrtDegree (withLoops d)
    ∧ after indexOps U (Proc.devRef .tc main_v5) = U (Proc.devRef .tc main_v5)
    ∧ after indexOps U (Proc.devRef .tc main_arg3) = U (Proc.devRef .tc main_arg3)
    ∧ after indexOps U (Proc.devRef .tc main_arg5) = U (Proc.devRef .tc main_arg5) := by
  simp only [indexOps, hostOps1, hostOps1_1, List.cons_append, List.nil_append]
  refine ⟨?_, ?_, ?_, ?_, ?_, ?_⟩
  all_goals after_results_simp
  all_goals try (repeat (first
    | rw [nullary_result] | rw [binary_result]
    | (rw [nullary_result_ne]; rotate_left; decide)
    | (rw [binary_result_ne]; rotate_left; decide)))
  · rw [h1]
  · rw [h3]
  · rw [h3, toBuf_v16, ofBuf_v14, ofBuf_v15, ofBuf_c1, toBuf_c1, ofBuf_c0, toBuf_c0, ofBuf_cst2]

set_option maxHeartbeats 4000000 in
/-- THE FIRST RESULT of the second stretch: from buffer contents `W` that hold the messages' end points, `deg^(-1/2)`, the product and `b_mu`, the pass at width 256, cut to columns `0 ≤ · < 128`, plus the bias is the reference's first result of the same arguments. -/
theorem tail_mu (W : Valuation τ sig (Elt Ideal)) (x0 : FVec Ideal S50000x512 .f32) (x1 : IVec S2x800000 32)
    (x2 x4 : FVec Ideal S512x128 .f32) (x3 : FVec Ideal S128 .f32)
    (w7 : W (Proc.devRef .tc main_v7) = withLoops (edgeRow x1 ![0, 0] slices_S2x800000_S1x800000_0_0))
    (w8 : W (Proc.devRef .tc main_v8) = withLoops (edgeRow x1 ![1, 0] slices_S2x800000_S1x800000_1_0))
    (w16 : W (Proc.devRef .tc main_v16)
      = invSqrtDegree (withLoops (edgeRow x1 ![1, 0] slices_S2x800000_S1x800000_1_0)))
    (w5 : W (Proc.devRef .tc main_v5) = Product.whole x0 (packed x2 x4))
    (wb : W (Proc.devRef .tc main_arg3) = x3)
    (m' : (ℓ : Loc Cert.ReferenceIdeal.nD Cert.ReferenceIdeal.τ Cert.ReferenceIdeal.sig) → Buf (Elt Ideal) ℓ) (c : Dev Cert.ReferenceIdeal.nD)
    (e0 : m' ((c.tc : Thread Cert.ReferenceIdeal.nD Cert.ReferenceIdeal.τ).loc Cert.ReferenceIdeal.main_arg0) = x0)
    (e1 : m' ((c.tc : Thread Cert.ReferenceIdeal.nD Cert.ReferenceIdeal.τ).loc Cert.ReferenceIdeal.main_arg1) = x1)
    (eW : m' ((c.tc : Thread Cert.ReferenceIdeal.nD Cert.ReferenceIdeal.τ).loc Cert.ReferenceIdeal.main_arg2) = x2)
    (eB : m' ((c.tc : Thread Cert.ReferenceIdeal.nD Cert.ReferenceIdeal.τ).loc Cert.ReferenceIdeal.main_arg3) = x3) :
    after hostOps1_2 W (Proc.devRef .tc main_v48) = Cert.ReferenceIdeal.ValueP.res_main_v46 m' c := by
  simp only [hostOps1_2]
  after_results_simp
  rw [w7, w8, w16, w5, wb]
  unfold Cert.ReferenceIdeal.ValueP.res_main_v46
  rw [e0, e1, eW, eB]
  refine congrArg₂ (addf (F := Ideal)) ?_ rfl
  have hN : 0 < 50000 := by omega
  have hoff : 0 + 128 ≤ 256 := by omega
  exact PackedAggregate.slice_pass_eq (N := 50000) (E := 850000) (C := 256) (W := 128) (off := 0)
    Cert.KernelIdeal.Gen.scatter_S50000x256_S850000x1_S850000x256_1_0_0_1_wf Cert.ReferenceIdeal.Gen.scatter_S50000x128_S850000x1_S850000x128_1_0_0_1_wf
    gather_S50000x256_S850000x1_S850000x256_1_0_n_n_0_1_1256 ⟨rfl, rfl, rfl, rfl, rfl, rfl, rfl⟩
    Cert.ReferenceIdeal.gather_S50000x128_S850000x1_S850000x128_1_0_n_n_0_1_1128 ⟨rfl, rfl, rfl, rfl, rfl, rfl, rfl⟩
    hN Cert.KernelIdeal.Gen.slices_S50000x256_S50000x128_0_0 Cert.KernelIdeal.Gen.bcast_S_S50000x256 Cert.ReferenceIdeal.Gen.bcast_S_S50000x128
    Cert.KernelIdeal.Gen.bcast_S850000x1_S850000x256_0_1 Cert.ReferenceIdeal.Gen.bcast_S850000x1_S850000x128_0_1
    _ (Product.whole x0 (packed x2 x4)) (Host.dotGeneral Cert.ReferenceIdeal.dot_S50000x512_S512x128_S50000x128_1_0_0_1_n_n none x0 x2)
    _ _ _ hoff (product_left x0 x2 x4)

set_option maxHeartbeats 4000000 in
/-- THE SECOND RESULT: columns `128 ≤ · < 256` of the same pass plus `b_logstd` is the reference's second result. -/
theorem tail_logstd (W : Valuation τ sig (Elt Ideal)) (x0 : FVec Ideal S50000x512 .f32) (x1 : IVec S2x800000 32)
    (x2 x4 : FVec Ideal S512x128 .f32) (x5 : FVec Ideal S128 .f32)
    (w7 : W (Proc.devRef .tc main_v7) = withLoops (edgeRow x1 ![0, 0] slices_S2x800000_S1x800000_0_0))
    (w8 : W (Proc.devRef .tc main_v8) = withLoops (edgeRow x1 ![1, 0] slices_S2x800000_S1x800000_1_0))
    (w16 : W (Proc.devRef .tc main_v16)
      = invSqrtDegree (withLoops (edgeRow x1 ![1, 0] slices_S2x800000_S1x800000_1_0)))
    (w5 : W (Proc.devRef .tc main_v5) = Product.whole x0 (packed x2 x4))
    (wb : W (Proc.devRef .tc main_arg5) = x5)
    (m' : (ℓ : Loc Cert.ReferenceIdeal.nD Cert.ReferenceIdeal.τ Cert.ReferenceIdeal.sig) → Buf (Elt Ideal) ℓ) (c : Dev Cert.ReferenceIdeal.nD)
    (e0 : m' ((c.tc : Thread Cert.ReferenceIdeal.nD Cert.ReferenceIdeal.τ).loc Cert.ReferenceIdeal.main_arg0) = x0)
    (e1 : m' ((c.tc : Thread Cert.ReferenceIdeal.nD Cert.ReferenceIdeal.τ).loc Cert.ReferenceIdeal.main_arg1) = x1)
    (eW : m' ((c.tc : Thread Cert.ReferenceIdeal.nD Cert.ReferenceIdeal.τ).loc Cert.ReferenceIdeal.main_arg4) = x4)
    (eB : m' ((c.tc : Thread Cert.ReferenceIdeal.nD Cert.ReferenceIdeal.τ).loc Cert.ReferenceIdeal.main_arg5) = x5) :
    after hostOps1_2 W (Proc.devRef .tc main_v52) = Cert.ReferenceIdeal.ValueP.res_main_v89 m' c := by
  simp only [hostOps1_2]
  after_results_simp
  rw [w7, w8, w16, w5, wb]
  unfold Cert.ReferenceIdeal.ValueP.res_main_v89
  rw [e0, e1, eW, eB]
  refine congrArg₂ (addf (F := Ideal)) ?_ rfl
  have hN : 0 < 50000 := by omega
  have hoff : 128 + 128 ≤ 256 := by omega
  exact PackedAggregate.slice_pass_eq (N := 50000) (E := 850000) (C := 256) (W := 128) (off := 128)
    Cert.KernelIdeal.Gen.scatter_S50000x256_S850000x1_S850000x256_1_0_0_1_wf Cert.ReferenceIdeal.Gen.scatter_S50000x128_S850000x1_S850000x128_1_0_0_1_wf
    gather_S50000x256_S850000x1_S850000x256_1_0_n_n_0_1_1256 ⟨rfl, rfl, rfl, rfl, rfl, rfl, rfl⟩
    Cert.ReferenceIdeal.gather_S50000x128_S850000x1_S850000x128_1_0_n_n_0_1_1128 ⟨rfl, rfl, rfl, rfl, rfl, rfl, rfl⟩
    hN Cert.KernelIdeal.Gen.slices_S50000x256_S50000x128_0_128 Cert.KernelIdeal.Gen.bcast_S_S50000x256 Cert.ReferenceIdeal.Gen.bcast_S_S50000x128
    Cert.KernelIdeal.Gen.bcast_S850000x1_S850000x256_0_1 Cert.ReferenceIdeal.Gen.bcast_S850000x1_S850000x128_0_1
    _ (Product.whole x0 (packed x2 x4)) (Host.dotGeneral Cert.ReferenceIdeal.dot_S50000x512_S512x128_S50000x128_1_0_0_1_n_n none x0 x4)
    _ _ _ hoff (product_right x0 x2 x4)

/-! ## From the kernel's run -/

section FromTheRun

variable (m : (ℓ : Loc nD τ sig) → Buf (Elt Ideal) ℓ)

/-- The buffer contents the lines after the region start from: the pipeline's arrays as the region leaves them, every
    other buffer as the region found it. -/
abbrev entry (c : Dev nD) : Valuation τ sig (Elt Ideal) :=
  Pipeline.withArrays spec0 c (V0 m c) fun w => (dats m 0 c).arrAt w cfg0.N

/-- What the lines before the region compute: the two rows of the edge list, and the packed weights. -/
theorem before_region (c : Dev nD) :
    V0 m c (Proc.devRef .tc main_v1) = edgeRow (m ((c.tc : Thread nD τ).loc main_arg1)) ![0, 0] slices_S2x800000_S1x800000_0_0
    ∧ V0 m c (Proc.devRef .tc main_v3) = edgeRow (m ((c.tc : Thread nD τ).loc main_arg1)) ![1, 0] slices_S2x800000_S1x800000_1_0
    ∧ V0 m c (Proc.devRef .tc main_v4) = packed (m ((c.tc : Thread nD τ).loc main_arg2)) (m ((c.tc : Thread nD τ).loc main_arg4)) := by
  refine ⟨?_, ?_, ?_⟩
  all_goals
    show StableHlo.after hostOps0 (fun b => m (c, b)) _ = _
    after_results
    try rfl

/-- A buffer that is no array of the pipeline is, after the region, as the region found it. -/
theorem entry_rest (c : Dev nD) (b : Ref sig .tc) (hb : ∀ w, Pipeline.arrRef spec0 w ≠ b) :
    entry m c (Proc.devRef .tc b) = V0 m c (Proc.devRef .tc b) :=
  Pipeline.withArrays_of_ne spec0 c (V0 m c) _ b hb

/-- The region's output array, after the region: `x · [W_mu | W_logstd]` of the arguments. -/
theorem entry_product (c : Dev nD) :
    entry m c (Proc.devRef .tc main_v5)
      = Product.whole (m ((c.tc : Thread nD τ).loc main_arg0)) (packed (m ((c.tc : Thread nD τ).loc main_arg2)) (m ((c.tc : Thread nD τ).loc main_arg4))) := by
  have h := Pipeline.withArrays_arr spec0 launch0.win.arr_inj c (V0 m c) (fun w => (dats m 0 c).arrAt w cfg0.N) 2
  refine h.trans ?_
  show (dats m 0 c).arrAt 2 cfg0.N = _
  refine (Product.final m c).trans ?_
  rw [V_main_arg0 m c]
  exact congrArg (Product.whole (m ((c.tc : Thread nD τ).loc main_arg0))) (before_region m c).2.2

variable (m' : (ℓ : Loc Cert.ReferenceIdeal.nD Cert.ReferenceIdeal.τ Cert.ReferenceIdeal.sig) → Buf (Elt Ideal) ℓ)

/-- The two results the lines after the region leave are the reference's results of arguments that agree. -/
theorem results (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5)) :
    Pipeline.afterTail₀ cfgs (dats m) 0 (V0 m) [hostOps1, hostOps1_1, hostOps1_2] c main_v48 = Cert.ReferenceIdeal.ValueP.res_main_v46 m' c
    ∧ Pipeline.afterTail₀ cfgs (dats m) 0 (V0 m) [hostOps1, hostOps1_1, hostOps1_2] c main_v52 = Cert.ReferenceIdeal.ValueP.res_main_v89 m' c := by
  obtain ⟨r1, r3, -⟩ := before_region m c
  obtain ⟨a7, a8, a16, a5, a3, a5'⟩ := indexOps_results (entry m c) _ _
    ((entry_rest m c main_v1 (by exact (by decide : ∀ w, Pipeline.arrRef spec0 w ≠ main_v1))).trans r1)
    ((entry_rest m c main_v3 (by exact (by decide : ∀ w, Pipeline.arrRef spec0 w ≠ main_v3))).trans r3)
  have hb3 := (entry_rest m c main_arg3 (by exact (by decide : ∀ w, Pipeline.arrRef spec0 w ≠ main_arg3))).trans (V_main_arg3 m c)
  have hb5 := (entry_rest m c main_arg5 (by exact (by decide : ∀ w, Pipeline.arrRef spec0 w ≠ main_arg5))).trans (V_main_arg5 m c)
  constructor
  · unfold Pipeline.afterTail₀
    simp only [List.flatten_cons, List.flatten_nil, List.append_nil]
    rw [← List.append_assoc, after_append]
    exact tail_mu (after indexOps (entry m c)) _ _ _ _ _ a7 a8 a16 (a5.trans (entry_product m c)) (a3.trans hb3) m' c e0 e1 e2 e3
  · unfold Pipeline.afterTail₀
    simp only [List.flatten_cons, List.flatten_nil, List.append_nil]
    rw [← List.append_assoc, after_append]
    exact tail_logstd (after indexOps (entry m c)) _ _ _ _ _ a7 a8 a16 (a5.trans (entry_product m c)) (a5'.trans hb5) m' c e0 e1 e4 e5

/-- THE KERNEL'S RUN, re-posted: every weakly fair execution terminates with its two results at the reference's
    results of arguments that agree, and its own arguments unchanged. -/
theorem kernel_run (ρ : Dev nD → PrngReg)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    θ_run defs (onTc (τ := τ) (main (F := Ideal))) ⟨m, fun _ => 0, ρ⟩ (fun r => ∀ c : Dev nD,
      r.2.mem ((c.tc : Thread nD τ).loc main_v48) = Cert.ReferenceIdeal.ValueP.res_main_v46 m' c
      ∧ r.2.mem ((c.tc : Thread nD τ).loc main_v52) = Cert.ReferenceIdeal.ValueP.res_main_v89 m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hr := results m m' c (hagree c).1 (hagree c).2.1 (hagree c).2.2.1 (hagree c).2.2.2.1 (hagree c).2.2.2.2.1 (hagree c).2.2.2.2.2
    ⟨((h c).2 main_v48 (Pipeline.mem_restRefs_of main_v48 (by decide) (by decide))).trans hr.1,
      ((h c).2 main_v52 (Pipeline.mem_restRefs_of main_v52 (by decide) (by decide))).trans hr.2,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end FromTheRun

end Cert.Bridge

end
-- ==== Proof.lean ====
/-
  Two graph-convolution layers sharing one graph: the kernel against its reference, on the extended reals.

  Both programs compute, for the weights `W_mu`, `W_logstd : [512, 128]`, the biases `b_mu`, `b_logstd : [128]`, the
  features `x : [50000, 512]` and the edge list `edge_index : [2, 800000]`,

      out_W (n, c) = b (c) + ∑ {messages e with dst e = n} (x · W) (src e, c) * norm e,

  over the 800000 edges and one self loop per node, with `norm e = deg(src e)^(-1/2) * deg(dst e)^(-1/2)` and `deg` the
  number of messages into a node (`0` in place of the inverse square root where the degree is not positive; a source index
  is clamped into range, a message whose destination is out of range is dropped — the same conventions in both).

  The reference does this once per layer. The kernel multiplies `x` by the packed weights `[W_mu | W_logstd]` tile by
  tile of 5000 rows in one region (Proof/KernelProduct.lean: the tiles are the tiles of the whole product), runs the
  gather, scale and scatter-add ONCE at width 256, and cuts the result into its two blocks of 128 columns. Since the
  product reads one column of the weights per column of the result (Proof/LibSideBySide.lean) and the aggregation treats
  every column on its own (Proof/LibPackedPass.lean), each block is the reference's layer (Proof/Bridge.lean). No
  law of the extended reals beyond reading both sides at an index is used, so the inputs' finiteness is never needed.
  The reference's run is Proof/RefRun.lean; the ideal pass rewrote nothing, so `preserves` is `True`.
-/
import proofs.«105369_j6760278524377_2_alg».proof.Defs
import proofs.«105369_j6760278524377_2_alg».proof.Proof.Gen.Kernel
import proofs.«105369_j6760278524377_2_alg».proof.Proof.Gen.Kernel.Skeleton
import proofs.«105369_j6760278524377_2_alg».proof.Proof.Gen.Kernel.Launch
import proofs.«105369_j6760278524377_2_alg».proof.Proof.Gen.Kernel.Points
import proofs.«105369_j6760278524377_2_alg».proof.Proof.Gen.Kernel.Frame
import proofs.«105369_j6760278524377_2_alg».proof.Proof.Gen.KernelIdeal
import proofs.«105369_j6760278524377_2_alg».proof.Proof.Gen.KernelIdeal.Skeleton
import proofs.«105369_j6760278524377_2_alg».proof.Proof.Gen.KernelIdeal.Launch
import proofs.«105369_j6760278524377_2_alg».proof.Proof.Gen.KernelIdeal.Points
import proofs.«105369_j6760278524377_2_alg».proof.Proof.Gen.KernelIdeal.Frame
import proofs.«105369_j6760278524377_2_alg».proof.Proof.Gen.ReferenceIdeal
import proofs.«105369_j6760278524377_2_alg».proof.Proof.RefRun
import proofs.«105369_j6760278524377_2_alg».proof.Proof.Bridge
import proofs.«105369_j6760278524377_2_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization is the kernel's own text read on the extended reals: nothing was rewritten. -/
theorem preserves : Cert.preserves_Kernel_KernelIdeal := trivial

/-- From memories that agree on the six arguments, the kernel ends with both results at the reference's results. -/
theorem algebraic : Cert.algebraic_KernelIdeal_ReferenceIdeal := fun m ρ m' ρ' _ hagree =>
  ⟨fun c => Cert.ReferenceIdeal.ValueP.res_main_v46 m' c, fun c => Cert.ReferenceIdeal.ValueP.res_main_v89 m' c,
    Cert.Bridge.kernel_run m m' ρ hagree, Cert.ReferenceIdeal.ValueP.run (F := Ideal) m' ρ'⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
